-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_arg3)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg3) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg3) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024x3 : Shape := ⟨3, ![512, 1024, 3]⟩
abbrev S512x256x3 : Shape := ⟨3, ![512, 256, 3]⟩
abbrev S512x1024x256 : Shape := ⟨3, ![512, 1024, 256]⟩
abbrev S768x3072 : Shape := ⟨2, ![768, 3072]⟩
abbrev S3072 : Shape := ⟨1, ![3072]⟩
abbrev S3072x3072 : Shape := ⟨2, ![3072, 3072]⟩
abbrev S1024 : Shape := ⟨1, ![1024]⟩
abbrev S_ : Shape := ⟨0, ![]⟩

class Facts : Prop where
  bcast_S_S512x1024x3 : S_.BroadcastsInDim S512x1024x3 (![] : Fin 0 → Fin S512x1024x3.rank)
  reducesTo_S512x1024x3_S_d0_1_2 : S512x1024x3.ReducesTo [0, 1, 2] S_
  h_S_ : 0 < S_.numel
  bcast_S_S512x256x3 : S_.BroadcastsInDim S512x256x3 (![] : Fin 0 → Fin S512x256x3.rank)
  reducesTo_S512x256x3_S_d0_1_2 : S512x256x3.ReducesTo [0, 1, 2] S_
  bcast_S_S512x1024x256 : S_.BroadcastsInDim S512x1024x256 (![] : Fin 0 → Fin S512x1024x256.rank)
  reducesTo_S512x1024x256_S_d0_1_2 : S512x1024x256.ReducesTo [0, 1, 2] S_
  bcast_S_S768x3072 : S_.BroadcastsInDim S768x3072 (![] : Fin 0 → Fin S768x3072.rank)
  reducesTo_S768x3072_S_d0_1 : S768x3072.ReducesTo [0, 1] S_
  bcast_S_S3072 : S_.BroadcastsInDim S3072 (![] : Fin 0 → Fin S3072.rank)
  reducesTo_S3072_S_d0 : S3072.ReducesTo [0] S_
  bcast_S_S3072x3072 : S_.BroadcastsInDim S3072x3072 (![] : Fin 0 → Fin S3072x3072.rank)
  reducesTo_S3072x3072_S_d0_1 : S3072x3072.ReducesTo [0, 1] S_

variable [Facts]

def fn_part2 {F : FTy → Type} [FloatOps F] (main_arg7 : FVec F S3072 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  main_v38

def fn_part1 {F : FTy → Type} [FloatOps F] (main_arg4 : FVec F S768x3072 .f32) (main_arg5 : FVec F S3072 .f32) (main_arg6 : FVec F S3072x3072 .f32) (main_arg7 : FVec F S3072 .f32) (main_v13 : IVec S_ 1) (main_v16 : IVec S512x1024x256 1) : IVec S_ 1 :=
  let main_c_5 : IVec S_ 1 := constantI S_ 1 1#1
  let main_v17 : IVec S_ 1 := (fun x v => Host.reduce IntOp.andi x v reducesTo_S512x1024x256_S_d0_1_2 h_S_) main_v16 main_c_5
  let main_v18 : IVec S_ 1 := andi main_v13 main_v17
  let main_v19 : FVec F S768x3072 .f32 := Host.absf main_arg4
  let main_cst_6 : FVec F S_ .f32 := constant S_ .f32 0x7F800000#32
  let main_v20 : FVec F S768x3072 .f32 := broadcastInDim S768x3072 ![] bcast_S_S768x3072 main_cst_6
  let main_v21 : IVec S768x3072 1 := cmpf .olt main_v19 main_v20
  let main_c_7 : IVec S_ 1 := constantI S_ 1 1#1
  let main_v22 : IVec S_ 1 := (fun x v => Host.reduce IntOp.andi x v reducesTo_S768x3072_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S3072x3072 .f32 := Host.absf main_arg6
  let main_cst_10 : FVec F S_ .f32 := constant S_ .f32 0x7F800000#32
  let main_v30 : FVec F S3072x3072 .f32 := broadcastInDim S3072x3072 ![] bcast_S_S3072x3072 main_cst_10
  let main_v31 : IVec S3072x3072 1 := cmpf .olt main_v29 main_v30
  let main_c_11 : IVec S_ 1 := constantI S_ 1 1#1
  let main_v32 : IVec S_ 1 := (fun x v => Host.reduce IntOp.andi x v reducesTo_S3072x3072_S_d0_1 h_S_) main_v31 main_c_11
  let main_v33 : IVec S_ 1 := andi main_v28 main_v32
  fn_part2 (F := F) main_arg7 main_v33

def fn {F : FTy → Type} [FloatOps F] (main_arg0 : FVec F S512x1024x3 .f32) (main_arg1 : FVec F S512x256x3 .f32) (main_arg2 : FVec F S512x1024x256 .f32) (main_arg3 : FVec F S512x1024x256 .f32) (main_arg4 : FVec F S768x3072 .f32) (main_arg5 : FVec F S3072 .f32) (main_arg6 : FVec F S3072x3072 .f32) (main_arg7 : FVec F S3072 .f32) (main_arg8 : IVec S1024 32) (main_arg9 : IVec S1024 32) : IVec S_ 1 :=
  let main_v0 : FVec F S512x1024x3 .f32 := Host.absf main_arg0
  let main_cst : FVec F S_ .f32 := constant S_ .f32 0x7F800000#32
  let main_v1 : FVec F S512x1024x3 .f32 := broadcastInDim S512x1024x3 ![] bcast_S_S512x1024x3 main_cst
  let main_v2 : IVec S512x1024x3 1 := cmpf .olt main_v0 main_v1
  let main_c : IVec S_ 1 := constantI S_ 1 1#1
  let main_v3 : IVec S_ 1 := (fun x v => Host.reduce IntOp.andi x v reducesTo_S512x1024x3_S_d0_1_2 h_S_) main_v2 main_c
  let main_v4 : FVec F S512x256x3 .f32 := Host.absf main_arg1
  let main_cst_0 : FVec F S_ .f32 := constant S_ .f32 0x7F800000#32
  let main_v5 : FVec F S512x256x3 .f32 := broadcastInDim S512x256x3 ![] bcast_S_S512x256x3 main_cst_0
  let main_v6 : IVec S512x256x3 1 := cmpf .olt main_v4 main_v5
  let main_c_1 : IVec S_ 1 := constantI S_ 1 1#1
  let main_v7 : IVec S_ 1 := (fun x v => Host.reduce IntOp.andi x v reducesTo_S512x256x3_S_d0_1_2 h_S_) main_v6 main_c_1
  let main_v8 : IVec S_ 1 := andi main_v3 main_v7
  let main_v9 : FVec F S512x1024x256 .f32 := Host.absf main_arg2
  let main_cst_2 : FVec F S_ .f32 := constant S_ .f32 0x7F800000#32
  let main_v10 : FVec F S512x1024x256 .f32 := broadcastInDim S512x1024x256 ![] bcast_S_S512x1024x256 main_cst_2
  let main_v11 : IVec S512x1024x256 1 := cmpf .olt main_v9 main_v10
  let main_c_3 : IVec S_ 1 := constantI S_ 1 1#1
  let main_v12 : IVec S_ 1 := (fun x v => Host.reduce IntOp.andi x v reducesTo_S512x1024x256_S_d0_1_2 h_S_) main_v11 main_c_3
  let main_v13 : IVec S_ 1 := andi main_v8 main_v12
  let main_v14 : FVec F S512x1024x256 .f32 := Host.absf main_arg3
  let main_cst_4 : FVec F S_ .f32 := constant S_ .f32 0x7F800000#32
  let main_v15 : FVec F S512x1024x256 .f32 := broadcastInDim S512x1024x256 ![] bcast_S_S512x1024x256 main_cst_4
  let main_v16 : IVec S512x1024x256 1 := cmpf .olt main_v14 main_v15
  fn_part1 (F := F) main_arg4 main_arg5 main_arg6 main_arg7 main_v13 main_v16
-- ==== Kernel.lean ====
abbrev S512x1024x3 : Shape := ⟨3, ![512, 1024, 3]⟩
abbrev S512x256x3 : Shape := ⟨3, ![512, 256, 3]⟩
abbrev S512x1024x256 : Shape := ⟨3, ![512, 1024, 256]⟩
abbrev S768x3072 : Shape := ⟨2, ![768, 3072]⟩
abbrev S3072 : Shape := ⟨1, ![3072]⟩
abbrev S3072x3072 : Shape := ⟨2, ![3072, 3072]⟩
abbrev S1024 : Shape := ⟨1, ![1024]⟩
abbrev S512x3x3 : Shape := ⟨3, ![512, 3, 3]⟩
abbrev S512x1x3x3 : Shape := ⟨4, ![512, 1, 3, 3]⟩
abbrev S512x256x1x3 : Shape := ⟨4, ![512, 256, 1, 3]⟩
abbrev S512x256x3x3 : Shape := ⟨4, ![512, 256, 3, 3]⟩
abbrev S_ : Shape := ⟨0, ![]⟩
abbrev S512x768 : Shape := ⟨2, ![512, 768]⟩
abbrev S512x3072 : Shape := ⟨2, ![512, 3072]⟩
abbrev S128x768 : Shape := ⟨2, ![128, 768]⟩
abbrev S128x3072 : Shape := ⟨2, ![128, 3072]⟩
abbrev S1x3072 : Shape := ⟨2, ![1, 3072]⟩
abbrev S512x256x3x4 : Shape := ⟨4, ![512, 256, 3, 4]⟩
abbrev S512x256x4x3 : Shape := ⟨4, ![512, 256, 4, 3]⟩
abbrev S1024x1 : Shape := ⟨2, ![1024, 1]⟩
abbrev S1024x2 : Shape := ⟨2, ![1024, 2]⟩
abbrev S16x1024x3 : Shape := ⟨3, ![16, 1024, 3]⟩
abbrev S16x1024x256 : Shape := ⟨3, ![16, 1024, 256]⟩
abbrev S16x256x3 : Shape := ⟨3, ![16, 256, 3]⟩

abbrev nBuf : Space → Nat
  | .hbm => 66
  | .vmem => 14
  | .smem => 0
  | _ => 0

abbrev bufTy : (tb : Table) → Fin (tcTables nBuf tb) → BufTy
  | .hbm, ⟨0, _⟩ => ⟨S512x1024x3, .f32⟩
  | .hbm, ⟨1, _⟩ => ⟨S512x256x3, .f32⟩
  | .hbm, ⟨2, _⟩ => ⟨S512x1024x256, .f32⟩
  | .hbm, ⟨3, _⟩ => ⟨S512x1024x256, .f32⟩
  | .hbm, ⟨4, _⟩ => ⟨S768x3072, .f32⟩
  | .hbm, ⟨5, _⟩ => ⟨S3072, .f32⟩
  | .hbm, ⟨6, _⟩ => ⟨S3072x3072, .f32⟩
  | .hbm, ⟨7, _⟩ => ⟨S3072, .f32⟩
  | .hbm, ⟨8, _⟩ => ⟨S1024, .i32⟩
  | .hbm, ⟨9, _⟩ => ⟨S1024, .i32⟩
  | .hbm, ⟨10, _⟩ => ⟨S512x3x3, .f32⟩
  | .hbm, ⟨11, _⟩ => ⟨S512x1x3x3, .f32⟩
  | .hbm, ⟨12, _⟩ => ⟨S512x256x1x3, .f32⟩
  | .hbm, ⟨13, _⟩ => ⟨S512x256x3x3, .f32⟩
  | .hbm, ⟨14, _⟩ => ⟨S512x256x3x3, .f32⟩
  | .hbm, ⟨15, _⟩ => ⟨S512x256x3x3, .f32⟩
  | .hbm, ⟨16, _⟩ => ⟨S512x256x3x3, .f32⟩
  | .hbm, ⟨17, _⟩ => ⟨S_, .f32⟩
  | .hbm, ⟨18, _⟩ => ⟨S512x256x3, .f32⟩
  | .hbm, ⟨19, _⟩ => ⟨S512x256x3, .f32⟩
  | .hbm, ⟨20, _⟩ => ⟨S512x768, .f32⟩
  | .hbm, ⟨21, _⟩ => ⟨S512x768, .bf16⟩
  | .hbm, ⟨22, _⟩ => ⟨S768x3072, .bf16⟩
  | .hbm, ⟨23, _⟩ => ⟨S3072x3072, .bf16⟩
  | .hbm, ⟨24, _⟩ => ⟨S512x3072, .f32⟩
  | .hbm, ⟨25, _⟩ => ⟨S512x256x3x4, .f32⟩
  | .hbm, ⟨26, _⟩ => ⟨S512x256x4x3, .f32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S1024x1, .i32⟩
  | .hbm, ⟨42, _⟩ => ⟨S1024x1, .i32⟩
  | .hbm, ⟨43, _⟩ => ⟨S1024x2, .i32⟩
  | .hbm, ⟨44, _⟩ => ⟨S512x1024x3, .f32⟩
  | .hbm, ⟨45, _⟩ => ⟨S512x256x3, .f32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S512x1024x3, .f32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S1024, .i32⟩
  | .hbm, ⟨62, _⟩ => ⟨S1024x1, .i32⟩
  | .hbm, ⟨63, _⟩ => ⟨S512x1024x3, .f32⟩
  | .hbm, ⟨64, _⟩ => ⟨S512x1024x3, .f32⟩
  | .hbm, ⟨65, _⟩ => ⟨S512x1024x3, .f32⟩
  | .local _ .vmem, ⟨0, _⟩ => ⟨S128x768, .bf16⟩
  | .local _ .vmem, ⟨1, _⟩ => ⟨S128x768, .bf16⟩
  | .local _ .vmem, ⟨2, _⟩ => ⟨S768x3072, .bf16⟩
  | .local _ .vmem, ⟨3, _⟩ => ⟨S3072, .f32⟩
  | .local _ .vmem, ⟨4, _⟩ => ⟨S3072x3072, .bf16⟩
  | .local _ .vmem, ⟨5, _⟩ => ⟨S3072, .f32⟩
  | .local _ .vmem, ⟨6, _⟩ => ⟨S128x3072, .f32⟩
  | .local _ .vmem, ⟨7, _⟩ => ⟨S128x3072, .f32⟩
  | .local _ .vmem, ⟨8, _⟩ => ⟨S16x1024x3, .f32⟩
  | .local _ .vmem, ⟨9, _⟩ => ⟨S16x1024x3, .f32⟩
  | .local _ .vmem, ⟨10, _⟩ => ⟨S16x1024x256, .f32⟩
  | .local _ .vmem, ⟨11, _⟩ => ⟨S16x1024x256, .f32⟩
  | .local _ .vmem, ⟨12, _⟩ => ⟨S16x256x3, .f32⟩
  | .local _ .vmem, ⟨13, _⟩ => ⟨S16x256x3, .f32⟩
  | _, _ => ⟨S512x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x256x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S512x256x3_S512x3x3_0_1_0 : S512x256x3.Slices ![0, 1, 0] S512x3x3
  bcast_S512x3x3_S512x1x3x3_0_2_3 : S512x3x3.BroadcastsInDim S512x1x3x3 (![0, 2, 3] : Fin 3 → Fin S512x1x3x3.rank)
  bcast_S512x256x3_S512x256x1x3_0_1_3 : S512x256x3.BroadcastsInDim S512x256x1x3 (![0, 1, 3] : Fin 3 → Fin S512x256x1x3.rank)
  bcast_S512x1x3x3_S512x256x3x3_0_1_2_3 : S512x1x3x3.BroadcastsInDim S512x256x3x3 (![0, 1, 2, 3] : Fin 4 → Fin S512x256x3x3.rank)
  bcast_S512x256x1x3_S512x256x3x3_0_1_2_3 : S512x256x1x3.BroadcastsInDim S512x256x3x3 (![0, 1, 2, 3] : Fin 4 → Fin S512x256x3x3.rank)
  reducesTo_S512x256x3x3_S512x256x3_d3 : S512x256x3x3.ReducesTo [3] S512x256x3
  h_S_ : 0 < S_.numel
  shapeCasts_S512x256x3_S512x768 : S512x256x3.ShapeCasts S512x768
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S128x3072 : S1x3072.Broadcasts S128x3072
  inb_S3072x3072_S3072x3072_0_0 : ∀ a, (![0, 0] : Fin 2 → Nat) a + S3072x3072.size a ≤ S3072x3072.size a
  h_S3072x3072 : 0 < S3072x3072.numel
  shapeCasts_S3072x3072_S3072x3072 : S3072x3072.ShapeCasts S3072x3072
  inb_S128x3072_S128x3072_0_0 : ∀ a, (![0, 0] : Fin 2 → Nat) a + S128x3072.size a ≤ S128x3072.size a
  h_S128x3072 : 0 < S128x3072.numel
  shapeCasts_S512x3072_S512x256x3x4 : S512x3072.ShapeCasts S512x256x3x4
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  inb_S16x1024x3_S16x1024x3_0_0_0 : ∀ a, (![0, 0, 0] : Fin 3 → Nat) a + S16x1024x3.size a ≤ S16x1024x3.size a
  h_S16x1024x3 : 0 < S16x1024x3.numel
  shapeCasts_S16x1024x3_S16x1024x3 : S16x1024x3.ShapeCasts S16x1024x3
  inb_S16x1024x256_S16x1024x256_0_0_0 : ∀ a, (![0, 0, 0] : Fin 3 → Nat) a + S16x1024x256.size a ≤ S16x1024x256.size a
  h_S16x1024x256 : 0 < S16x1024x256.numel
  inb_S16x256x3_S16x256x3_0_0_0 : ∀ a, (![0, 0, 0] : Fin 3 → Nat) a + S16x256x3.size a ≤ S16x256x3.size a
  h_S16x256x3 : 0 < S16x256x3.numel
  dot_S128x768_S768x3072_S128x3072_1_0_0_1_n_n_wf : DotDims.WF S128x768 S768x3072 S128x3072 [1] [0] [0] [1] [] []
  dot_S128x3072_S3072x3072_S128x3072_1_0_0_1_n_n_wf : DotDims.WF S128x3072 S3072x3072 S128x3072 [1] [0] [0] [1] [] []
  dot_S512x256x3x4_S512x256x3x3_S512x256x4x3_2_2_3_3_01_01_wf : DotDims.WF S512x256x3x4 S512x256x3x3 S512x256x4x3 [2] [2] [3] [3] [0, 1] [0, 1]
  gather_S512x256x4x3_S1024x2_S512x1024x3_02_12_n_n_12_1_512113_wf : GatherDims.WF S512x256x4x3 S1024x2 S512x1024x3 [0, 2] [1, 2] [] [1, 2] [] 1 ![512, 1, 1, 3]
  dot_S16x1024x256_S16x1024x3_S16x256x3_1_1_2_2_0_0_wf : DotDims.WF S16x1024x256 S16x1024x3 S16x256x3 [1] [1] [2] [2] [0] [0]
  gather_S512x256x3_S1024x1_S512x1024x3_02_1_n_n_1_1_51213_wf : GatherDims.WF S512x256x3 S1024x1 S512x1024x3 [0, 2] [1] [] [1] [] 1 ![512, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S512x768.size a
  hwx0_0 : ∀ i : grid0.Coords, EltTy.bits .bf16 = 32 ∨ (Rect.block (s := S512x768) S128x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x3072.size a ≤ S768x3072.size a
  hwx0_1 : ∀ i : grid0.Coords, EltTy.bits .bf16 = 32 ∨ (Rect.block (s := S768x3072) S768x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x3072.size a ≤ S3072x3072.size a
  hwx0_3 : ∀ i : grid0.Coords, EltTy.bits .bf16 = 32 ∨ (Rect.block (s := S3072x3072) S3072x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x3072.size a ≤ S512x3072.size a
  hwx0_5 : ∀ i : grid0.Coords, EltTy.bits .f32 = 32 ∨ (Rect.block (s := S512x3072) S128x3072.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x1024x3.size a ≤ S512x1024x3.size a
  hwx1_0 : ∀ i : grid1.Coords, EltTy.bits .f32 = 32 ∨ (Rect.block (s := S512x1024x3) S16x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1024x256.size a ≤ S512x1024x256.size a
  hwx1_1 : ∀ i : grid1.Coords, EltTy.bits .f32 = 32 ∨ (Rect.block (s := S512x1024x256) S16x1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256x3.size a ≤ S512x256x3.size a
  hwx1_2 : ∀ i : grid1.Coords, EltTy.bits .f32 = 32 ∨ (Rect.block (s := S512x256x3) S16x256x3.size (cc1_transform_2 i) (hinb1_2 i)).WholeWords (EltTy.packing .f32)

variable [Facts₀]

def dot_S128x768_S768x3072_S128x3072_1_0_0_1_n_n : DotDims S128x768 S768x3072 S128x3072 where
  lhsContracting := [1]
  rhsContracting := [0]
  lhsNonContracting := [0]
  rhsNonContracting := [1]
  lhsBatch := []
  rhsBatch := []
  wf := dot_S128x768_S768x3072_S128x3072_1_0_0_1_n_n_wf
def dot_S128x3072_S3072x3072_S128x3072_1_0_0_1_n_n : DotDims S128x3072 S3072x3072 S128x3072 where
  lhsContracting := [1]
  rhsContracting := [0]
  lhsNonContracting := [0]
  rhsNonContracting := [1]
  lhsBatch := []
  rhsBatch := []
  wf := dot_S128x3072_S3072x3072_S128x3072_1_0_0_1_n_n_wf
def dot_S512x256x3x4_S512x256x3x3_S512x256x4x3_2_2_3_3_01_01 : DotDims S512x256x3x4 S512x256x3x3 S512x256x4x3 where
  lhsContracting := [2]
  rhsContracting := [2]
  lhsNonContracting := [3]
  rhsNonContracting := [3]
  lhsBatch := [0, 1]
  rhsBatch := [0, 1]
  wf := dot_S512x256x3x4_S512x256x3x3_S512x256x4x3_2_2_3_3_01_01_wf
def gather_S512x256x4x3_S1024x2_S512x1024x3_02_12_n_n_12_1_512113 : GatherDims S512x256x4x3 S1024x2 S512x1024x3 where
  offsetDims := [0, 2]
  collapsedSliceDims := [1, 2]
  operandBatchingDims := []
  startIndicesBatchingDims := []
  startIndexMap := [1, 2]
  indexVectorDim := 1
  sliceSizes := ![512, 1, 1, 3]
  wf := gather_S512x256x4x3_S1024x2_S512x1024x3_02_12_n_n_12_1_512113_wf
def dot_S16x1024x256_S16x1024x3_S16x256x3_1_1_2_2_0_0 : DotDims S16x1024x256 S16x1024x3 S16x256x3 where
  lhsContracting := [1]
  rhsContracting := [1]
  lhsNonContracting := [2]
  rhsNonContracting := [2]
  lhsBatch := [0]
  rhsBatch := [0]
  wf := dot_S16x1024x256_S16x1024x3_S16x256x3_1_1_2_2_0_0_wf
def gather_S512x256x3_S1024x1_S512x1024x3_02_1_n_n_1_1_51213 : GatherDims S512x256x3 S1024x1 S512x1024x3 where
  offsetDims := [0, 2]
  collapsedSliceDims := [1]
  operandBatchingDims := []
  startIndicesBatchingDims := []
  startIndexMap := [1]
  indexVectorDim := 1
  sliceSizes := ![512, 1, 3]
  wf := gather_S512x256x3_S1024x1_S512x1024x3_02_1_n_n_1_1_51213_wf

abbrev win0_0 : Pipeline.Window sig grid0 :=
  Pipeline.Window.ofSpec (Memref.whole main_v10) S128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S768x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S3072x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S128x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S16x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S16x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S16x256x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x1024x3 : Shape := ⟨3, ![512, 1024, 3]⟩
abbrev S512x256x3 : Shape := ⟨3, ![512, 256, 3]⟩
abbrev S512x1024x256 : Shape := ⟨3, ![512, 1024, 256]⟩
abbrev S768x3072 : Shape := ⟨2, ![768, 3072]⟩
abbrev S3072 : Shape := ⟨1, ![3072]⟩
abbrev S3072x3072 : Shape := ⟨2, ![3072, 3072]⟩
abbrev S1024 : Shape := ⟨1, ![1024]⟩
abbrev S512x3x3 : Shape := ⟨3, ![512, 3, 3]⟩
abbrev S512x1x3x3 : Shape := ⟨4, ![512, 1, 3, 3]⟩
abbrev S512x256x1x3 : Shape := ⟨4, ![512, 256, 1, 3]⟩
abbrev S512x256x3x3 : Shape := ⟨4, ![512, 256, 3, 3]⟩
abbrev S_ : Shape := ⟨0, ![]⟩
abbrev S512x768 : Shape := ⟨2, ![512, 768]⟩
abbrev S512x3072 : Shape := ⟨2, ![512, 3072]⟩
abbrev S1x3072 : Shape := ⟨2, ![1, 3072]⟩
abbrev S512x256x3x4 : Shape := ⟨4, ![512, 256, 3, 4]⟩
abbrev S512x256x4x3 : Shape := ⟨4, ![512, 256, 4, 3]⟩
abbrev S1024x1 : Shape := ⟨2, ![1024, 1]⟩
abbrev S1024x2 : Shape := ⟨2, ![1024, 2]⟩

abbrev nBuf : Space → Nat
  | .hbm => 73
  | .vmem => 0
  | .smem => 0
  | _ => 0

abbrev bufTy : (tb : Table) → Fin (tcTables nBuf tb) → BufTy
  | .hbm, ⟨0, _⟩ => ⟨S512x1024x3, .f32⟩
  | .hbm, ⟨1, _⟩ => ⟨S512x256x3, .f32⟩
  | .hbm, ⟨2, _⟩ => ⟨S512x1024x256, .f32⟩
  | .hbm, ⟨3, _⟩ => ⟨S512x1024x256, .f32⟩
  | .hbm, ⟨4, _⟩ => ⟨S768x3072, .f32⟩
  | .hbm, ⟨5, _⟩ => ⟨S3072, .f32⟩
  | .hbm, ⟨6, _⟩ => ⟨S3072x3072, .f32⟩
  | .hbm, ⟨7, _⟩ => ⟨S3072, .f32⟩
  | .hbm, ⟨8, _⟩ => ⟨S1024, .i32⟩
  | .hbm, ⟨9, _⟩ => ⟨S1024, .i32⟩
  | .hbm, ⟨10, _⟩ => ⟨S512x3x3, .f32⟩
  | .hbm, ⟨11, _⟩ => ⟨S512x1x3x3, .f32⟩
  | .hbm, ⟨12, _⟩ => ⟨S512x256x1x3, .f32⟩
  | .hbm, ⟨13, _⟩ => ⟨S512x256x3x3, .f32⟩
  | .hbm, ⟨14, _⟩ => ⟨S512x256x3x3, .f32⟩
  | .hbm, ⟨15, _⟩ => ⟨S512x256x3x3, .f32⟩
  | .hbm, ⟨16, _⟩ => ⟨S512x256x3x3, .f32⟩
  | .hbm, ⟨17, _⟩ => ⟨S_, .f32⟩
  | .hbm, ⟨18, _⟩ => ⟨S512x256x3, .f32⟩
  | .hbm, ⟨19, _⟩ => ⟨S512x256x3, .f32⟩
  | .hbm, ⟨20, _⟩ => ⟨S512x768, .f32⟩
  | .hbm, ⟨21, _⟩ => ⟨S512x3072, .f32⟩
  | .hbm, ⟨22, _⟩ => ⟨S1x3072, .f32⟩
  | .hbm, ⟨23, _⟩ => ⟨S512x3072, .f32⟩
  | .hbm, ⟨24, _⟩ => ⟨S512x3072, .f32⟩
  | .hbm, ⟨25, _⟩ => ⟨S_, .f32⟩
  | .hbm, ⟨26, _⟩ => ⟨S512x3072, .f32⟩
  | .hbm, ⟨27, _⟩ => ⟨S512x3072, .f32⟩
  | .hbm, ⟨28, _⟩ => ⟨S512x3072, .f32⟩
  | .hbm, ⟨29, _⟩ => ⟨S1x3072, .f32⟩
  | .hbm, ⟨30, _⟩ => ⟨S512x3072, .f32⟩
  | .hbm, ⟨31, _⟩ => ⟨S512x3072, .f32⟩
  | .hbm, ⟨32, _⟩ => ⟨S512x256x3x4, .f32⟩
  | .hbm, ⟨33, _⟩ => ⟨S512x256x4x3, .f32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x1, .i32⟩
  | .hbm, ⟨50, _⟩ => ⟨S1024x2, .i32⟩
  | .hbm, ⟨51, _⟩ => ⟨S512x1024x3, .f32⟩
  | .hbm, ⟨52, _⟩ => ⟨S512x256x3, .f32⟩
  | .hbm, ⟨53, _⟩ => ⟨S_, .i32⟩
  | .hbm, ⟨54, _⟩ => ⟨S1024, .i32⟩
  | .hbm, ⟨55, _⟩ => ⟨S1024, .i1⟩
  | .hbm, ⟨56, _⟩ => ⟨S_, .i32⟩
  | .hbm, ⟨57, _⟩ => ⟨S1024, .i32⟩
  | .hbm, ⟨58, _⟩ => ⟨S1024, .i32⟩
  | .hbm, ⟨59, _⟩ => ⟨S1024, .i32⟩
  | .hbm, ⟨60, _⟩ => ⟨S1024x1, .i32⟩
  | .hbm, ⟨61, _⟩ => ⟨S512x1024x3, .f32⟩
  | .hbm, ⟨62, _⟩ => ⟨S_, .i32⟩
  | .hbm, ⟨63, _⟩ => ⟨S1024, .i32⟩
  | .hbm, ⟨64, _⟩ => ⟨S1024, .i1⟩
  | .hbm, ⟨65, _⟩ => ⟨S_, .i32⟩
  | .hbm, ⟨66, _⟩ => ⟨S1024, .i32⟩
  | .hbm, ⟨67, _⟩ => ⟨S1024, .i32⟩
  | .hbm, ⟨68, _⟩ => ⟨S1024, .i32⟩
  | .hbm, ⟨69, _⟩ => ⟨S1024x1, .i32⟩
  | .hbm, ⟨70, _⟩ => ⟨S512x1024x3, .f32⟩
  | .hbm, ⟨71, _⟩ => ⟨S512x1024x3, .f32⟩
  | .hbm, ⟨72, _⟩ => ⟨S512x1024x3, .f32⟩
  | _, _ => ⟨S512x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_3 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S512x256x3_S512x3x3_0_1_0 : S512x256x3.Slices ![0, 1, 0] S512x3x3
  bcast_S512x3x3_S512x1x3x3_0_2_3 : S512x3x3.BroadcastsInDim S512x1x3x3 (![0, 2, 3] : Fin 3 → Fin S512x1x3x3.rank)
  bcast_S512x256x3_S512x256x1x3_0_1_3 : S512x256x3.BroadcastsInDim S512x256x1x3 (![0, 1, 3] : Fin 3 → Fin S512x256x1x3.rank)
  bcast_S512x1x3x3_S512x256x3x3_0_1_2_3 : S512x1x3x3.BroadcastsInDim S512x256x3x3 (![0, 1, 2, 3] : Fin 4 → Fin S512x256x3x3.rank)
  bcast_S512x256x1x3_S512x256x3x3_0_1_2_3 : S512x256x1x3.BroadcastsInDim S512x256x3x3 (![0, 1, 2, 3] : Fin 4 → Fin S512x256x3x3.rank)
  reducesTo_S512x256x3x3_S512x256x3_d3 : S512x256x3x3.ReducesTo [3] S512x256x3
  h_S_ : 0 < S_.numel
  shapeCasts_S512x256x3_S512x768 : S512x256x3.ShapeCasts S512x768
  bcast_S3072_S1x3072_1 : S3072.BroadcastsInDim S1x3072 (![1] : Fin 1 → Fin S1x3072.rank)
  bcast_S1x3072_S512x3072_0_1 : S1x3072.BroadcastsInDim S512x3072 (![0, 1] : Fin 2 → Fin S512x3072.rank)
  bcast_S_S512x3072 : S_.BroadcastsInDim S512x3072 (![] : Fin 0 → Fin S512x3072.rank)
  shapeCasts_S512x3072_S512x256x3x4 : S512x3072.ShapeCasts S512x256x3x4
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  dot_S512x768_S768x3072_S512x3072_1_0_0_1_n_n_wf : DotDims.WF S512x768 S768x3072 S512x3072 [1] [0] [0] [1] [] []
  dot_S512x3072_S3072x3072_S512x3072_1_0_0_1_n_n_wf : DotDims.WF S512x3072 S3072x3072 S512x3072 [1] [0] [0] [1] [] []
  dot_S512x256x3x4_S512x256x3x3_S512x256x4x3_2_2_3_3_01_01_wf : DotDims.WF S512x256x3x4 S512x256x3x3 S512x256x4x3 [2] [2] [3] [3] [0, 1] [0, 1]
  gather_S512x256x4x3_S1024x2_S512x1024x3_02_12_n_n_12_1_512113_wf : GatherDims.WF S512x256x4x3 S1024x2 S512x1024x3 [0, 2] [1, 2] [] [1, 2] [] 1 ![512, 1, 1, 3]
  dot_S512x1024x256_S512x1024x3_S512x256x3_1_1_2_2_0_0_wf : DotDims.WF S512x1024x256 S512x1024x3 S512x256x3 [1] [1] [2] [2] [0] [0]
  gather_S512x256x3_S1024x1_S512x1024x3_02_1_n_n_1_1_51213_wf : GatherDims.WF S512x256x3 S1024x1 S512x1024x3 [0, 2] [1] [] [1] [] 1 ![512, 1, 3]

variable [Facts₀]

def dot_S512x768_S768x3072_S512x3072_1_0_0_1_n_n : DotDims S512x768 S768x3072 S512x3072 where
  lhsContracting := [1]
  rhsContracting := [0]
  lhsNonContracting := [0]
  rhsNonContracting := [1]
  lhsBatch := []
  rhsBatch := []
  wf := dot_S512x768_S768x3072_S512x3072_1_0_0_1_n_n_wf
def dot_S512x3072_S3072x3072_S512x3072_1_0_0_1_n_n : DotDims S512x3072 S3072x3072 S512x3072 where
  lhsContracting := [1]
  rhsContracting := [0]
  lhsNonContracting := [0]
  rhsNonContracting := [1]
  lhsBatch := []
  rhsBatch := []
  wf := dot_S512x3072_S3072x3072_S512x3072_1_0_0_1_n_n_wf
def dot_S512x256x3x4_S512x256x3x3_S512x256x4x3_2_2_3_3_01_01 : DotDims S512x256x3x4 S512x256x3x3 S512x256x4x3 where
  lhsContracting := [2]
  rhsContracting := [2]
  lhsNonContracting := [3]
  rhsNonContracting := [3]
  lhsBatch := [0, 1]
  rhsBatch := [0, 1]
  wf := dot_S512x256x3x4_S512x256x3x3_S512x256x4x3_2_2_3_3_01_01_wf
def gather_S512x256x4x3_S1024x2_S512x1024x3_02_12_n_n_12_1_512113 : GatherDims S512x256x4x3 S1024x2 S512x1024x3 where
  offsetDims := [0, 2]
  collapsedSliceDims := [1, 2]
  operandBatchingDims := []
  startIndicesBatchingDims := []
  startIndexMap := [1, 2]
  indexVectorDim := 1
  sliceSizes := ![512, 1, 1, 3]
  wf := gather_S512x256x4x3_S1024x2_S512x1024x3_02_12_n_n_12_1_512113_wf
def dot_S512x1024x256_S512x1024x3_S512x256x3_1_1_2_2_0_0 : DotDims S512x1024x256 S512x1024x3 S512x256x3 where
  lhsContracting := [1]
  rhsContracting := [1]
  lhsNonContracting := [2]
  rhsNonContracting := [2]
  lhsBatch := [0]
  rhsBatch := [0]
  wf := dot_S512x1024x256_S512x1024x3_S512x256x3_1_1_2_2_0_0_wf
def gather_S512x256x3_S1024x1_S512x1024x3_02_1_n_n_1_1_51213 : GatherDims S512x256x3 S1024x1 S512x1024x3 where
  offsetDims := [0, 2]
  collapsedSliceDims := [1]
  operandBatchingDims := []
  startIndicesBatchingDims := []
  startIndexMap := [1]
  indexVectorDim := 1
  sliceSizes := ![512, 1, 3]
  wf := gather_S512x256x3_S1024x1_S512x1024x3_02_1_n_n_1_1_51213_wf

class Facts : Prop extends Facts₀ where

variable [Facts]
-- ==== Proof.KernelRun.lean ====
/-
  The idealized kernel program's run with its computed result named.

  The program is three stretches of host operations around two tiled regions. Every weakly fair execution of it
  terminates without a fault, and in the final state every buffer the program does not scope holds the contents the
  fold of the five segments leaves there: the contents after the last host stretch, over the second region's
  write-backs, over the middle stretch, over the first region's write-backs, over the first stretch, from the launch
  memory. Read at the ten argument arrays that fold walks back to the launch contents, since no segment writes them;
  read at the one computed result buffer it is the value the other modules evaluate.
-/
import proofs.«125936_j6708738916907_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument array as launched. -/
theorem run_all : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Gen

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«125936_j6708738916907_1_alg».proof.Proof.LibPlainContract
import proofs.«125936_j6708738916907_1_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.Spec.lean ====
/-
  What the two tiled regions compute, as functions of whole arrays, at exact (extended real) values.

  mlp D W1 b1 W2 b2   two dense layers on the rows of D: entry (p, q) is
                      Σ_k max(Σ_j D[p, j] · W1[j, k] + b1[k], 0) · W2[k, q] + b2[q];
  offs A X            batch member by batch member, the contraction over the atoms axis:
                      entry (b, j, n) is Σ_i A[b, i, j] · X[b, i, n].

  Both act on each row (each batch member) by itself, which is what lets a region compute them block by block.
-/
import proofs.«125936_j6708738916907_1_alg».proof.Proof.LibDenseRows
import Idealize.ShloMosaic.Lib.ValueIdx

noncomputable section

namespace Cert.Spec

open Idealize.ShloMosaic Idealize.ShloMosaic.ValueIdx Cert.Dense

/-- Two dense layers applied to the rows of a matrix. -/
def mlp {n : Nat} (D : Mat n 768) (W1 : Mat 768 3072) (b1 : Row 3072) (W2 : Mat 3072 3072) (b2 : Row 3072) : Mat n 3072 :=
  addRow (mm (act (mm D W1) b1) W2) b2

theorem mlp_apply {n : Nat} (D : Mat n 768) (W1 : Mat 768 3072) (b1 : Row 3072) (W2 : Mat 3072 3072) (b2 : Row 3072)
    (p : Fin n) (q : Fin 3072) :
    mlp D W1 b1 W2 b2 (ix2 p q)
      = (∑ k : Fin 3072, max ((∑ j : Fin 768, D (ix2 p j) * W1 (ix2 j k)) + b1 (ix1 k)) 0 * W2 (ix2 k q)) + b2 (ix1 q) := rfl

/-- A row of the result depends on the same row of the input only. -/
theorem mlp_row {n n' : Nat} (D : Mat n 768) (D' : Mat n' 768) (W1 : Mat 768 3072) (b1 : Row 3072) (W2 : Mat 3072 3072)
    (b2 : Row 3072) (p : Fin n) (p' : Fin n') (h : ∀ j : Fin 768, D' (ix2 p' j) = D (ix2 p j)) (q : Fin 3072) :
    mlp D' W1 b1 W2 b2 (ix2 p' q) = mlp D W1 b1 W2 b2 (ix2 p q) := by
  rw [mlp_apply, mlp_apply]
  simp only [h]

/-- The same at arbitrary indices: equal columns, and the input rows agreeing. -/
theorem mlp_block {n n' : Nat} (D : Mat n 768) (D' : Mat n' 768) (W1 : Mat 768 3072) (b1 : Row 3072) (W2 : Mat 3072 3072)
    (b2 : Row 3072) (j : (⟨2, ![n', 3072]⟩ : Shape).Idx) (i : (⟨2, ![n, 3072]⟩ : Shape).Idx)
    (hrow : ∀ k : Fin 768, D' (ix2 (j 0) k) = D (ix2 (i 0) k)) (hcol : (j 1).val = (i 1).val) :
    mlp D' W1 b1 W2 b2 j = mlp D W1 b1 W2 b2 i := by
  rw [eq_ix2 j, eq_ix2 i]
  have hc : (j 1 : Fin 3072) = i 1 := Fin.ext hcol
  rw [hc]
  exact mlp_row D D' W1 b1 W2 b2 (i 0) (j 0) hrow (i 1)

/-- A batch of [K, M] matrices. -/
abbrev Stack (n K M : Nat) : Type := (⟨3, ![n, K, M]⟩ : Shape).Idx → EReal

/-- Batch member by batch member, the contraction over the middle axis of both stacks. -/
def offs {n : Nat} (A : Stack n 1024 256) (X : Stack n 1024 3) : Stack n 256 3 :=
  fun i => ∑ k : Fin 1024, A (ix3 (i 0) k (i 1)) * X (ix3 (i 0) k (i 2))

theorem offs_apply {n : Nat} (A : Stack n 1024 256) (X : Stack n 1024 3) (b : Fin n) (j : Fin 256) (c : Fin 3) :
    offs A X (ix3 b j c) = ∑ k : Fin 1024, A (ix3 b k j) * X (ix3 b k c) := rfl

/-- A batch member of the result depends on the same batch member of the inputs only. -/
theorem offs_block {n n' : Nat} (A : Stack n 1024 256) (X : Stack n 1024 3) (A' : Stack n' 1024 256) (X' : Stack n' 1024 3)
    (j : (⟨3, ![n', 256, 3]⟩ : Shape).Idx) (i : (⟨3, ![n, 256, 3]⟩ : Shape).Idx)
    (hA : ∀ (k : Fin 1024) (q : Fin 256), A' (ix3 (j 0) k q) = A (ix3 (i 0) k q))
    (hX : ∀ (k : Fin 1024) (q : Fin 3), X' (ix3 (j 0) k q) = X (ix3 (i 0) k q))
    (h1 : (j 1).val = (i 1).val) (h2 : (j 2).val = (i 2).val) :
    offs A' X' j = offs A X i := by
  have e1 : (j 1 : Fin 256) = i 1 := Fin.ext h1
  have e2 : (j 2 : Fin 3) = i 2 := Fin.ext h2
  show ∑ k : Fin 1024, A' (ix3 (j 0) k (j 1)) * X' (ix3 (j 0) k (j 2)) = ∑ k : Fin 1024, A (ix3 (i 0) k (i 1)) * X (ix3 (i 0) k (i 2))
  refine Finset.sum_congr rfl fun k _ => ?_
  rw [e1, e2]
  exact congrArg₂ (· * ·) (hA k (i 1)) (hX k (i 2))

end Cert.Spec

end
-- ==== Proof.LibBatchMidContract.lean ====
/-
  A batched matrix contraction over the MIDDLE axis of both operands, read at one entry.

  For the dimension numbers of a [B, K, M] by [B, K, N] product with batch axis 0 on both sides that contracts axis 1
  of the left operand with axis 1 of the right operand (each batch member's left matrix used transposed), the sum over
  the contraction index that the exact product takes at result entry (b, p, q) is the sum over k < K of
  l[b, k, p] · r[b, k, q]. Stated for the sum itself, for a matrix unit's product into a zero accumulator, and for a
  host dot product, all at the exact (extended real) reading of floats. The record's well-formedness is a parameter:
  a program states it, and any two proofs of it give the same record.
-/
import Idealize.ShloMosaic.PureOps.Ideal.Laws
import Idealize.ShloMosaic.Lib.ValueIdx

noncomputable section

namespace Cert.LibBatchMidContract

open Idealize.ShloMosaic Idealize.ShloMosaic.ValueIdx

variable {B K M N : Nat}

/-- The dimension numbers: batch axis 0 with batch axis 0, contract axis 1 with axis 1; the result's middle axis is the
    left operand's last axis, its last axis the right operand's last axis. -/
abbrev midDims (w : DotDims.WF ⟨3, ![B, K, M]⟩ ⟨3, ![B, K, N]⟩ ⟨3, ![B, M, N]⟩ [1] [1] [2] [2] [0] [0]) :
    DotDims ⟨3, ![B, K, M]⟩ ⟨3, ![B, K, N]⟩ ⟨3, ![B, M, N]⟩ := ⟨[1], [1], [2], [2], [0], [0], w⟩

/-- At result entry (b, p, q) and contraction position k the left operand is read at (b, k, p) … -/
theorem mid_lhsIdx (w : DotDims.WF ⟨3, ![B, K, M]⟩ ⟨3, ![B, K, N]⟩ ⟨3, ![B, M, N]⟩ [1] [1] [2] [2] [0] [0])
    (b : Fin B) (p : Fin M) (q : Fin N) (k : Fin K) :
    (midDims w).lhsIdx (ix3 b p q) ((contrEquiv1 (midDims w) K rfl rfl).symm k) = ix3 b k p := by
  have hk := contrEquiv1_symm_val (midDims w) K rfl rfl k
  funext ax; apply Fin.ext
  match ax with
  | ⟨0, _⟩ => simp [DotDims.lhsIdx]; rfl
  | ⟨1, _⟩ => simp [DotDims.lhsIdx]; exact hk
  | ⟨2, _⟩ => simp [DotDims.lhsIdx]; rfl

/-- … and the right operand at (b, k, q). -/
theorem mid_rhsIdx (w : DotDims.WF ⟨3, ![B, K, M]⟩ ⟨3, ![B, K, N]⟩ ⟨3, ![B, M, N]⟩ [1] [1] [2] [2] [0] [0])
    (b : Fin B) (p : Fin M) (q : Fin N) (k : Fin K) :
    (midDims w).rhsIdx (ix3 b p q) ((contrEquiv1 (midDims w) K rfl rfl).symm k) = ix3 b k q := by
  have hk := contrEquiv1_symm_val (midDims w) K rfl rfl k
  funext ax; apply Fin.ext
  match ax with
  | ⟨0, _⟩ => simp [DotDims.rhsIdx]; rfl
  | ⟨1, _⟩ => simp [DotDims.rhsIdx]; exact hk
  | ⟨2, _⟩ => simp [DotDims.rhsIdx]; rfl

/-- The contraction sum at entry (b, p, q) is the sum over k of l[b, k, p] · r[b, k, q]. -/
theorem mid_sum (w : DotDims.WF ⟨3, ![B, K, M]⟩ ⟨3, ![B, K, N]⟩ ⟨3, ![B, M, N]⟩ [1] [1] [2] [2] [0] [0])
    (l : (⟨3, ![B, K, M]⟩ : Shape).Idx → EReal) (r : (⟨3, ![B, K, N]⟩ : Shape).Idx → EReal)
    (b : Fin B) (p : Fin M) (q : Fin N) :
    ∑ k : (midDims w).contr.Idx, l ((midDims w).lhsIdx (ix3 b p q) k) * r ((midDims w).rhsIdx (ix3 b p q) k)
      = ∑ k : Fin K, l (ix3 b k p) * r (ix3 b k q) := by
  rw [← Equiv.sum_comp (contrEquiv1 (midDims w) K rfl rfl).symm]
  refine Finset.sum_congr rfl fun k _ => ?_
  rw [mid_lhsIdx, mid_rhsIdx]

/-- A matrix unit's product into the zero accumulator, at entry (b, p, q). -/
theorem matmul_mid_apply (w : DotDims.WF ⟨3, ![B, K, M]⟩ ⟨3, ![B, K, N]⟩ ⟨3, ![B, M, N]⟩ [1] [1] [2] [2] [0] [0])
    {φ₁ φ₂ : FTy} (prec : Option ContractPrecision)
    (l : FVec Ideal ⟨3, ![B, K, M]⟩ φ₁) (r : FVec Ideal ⟨3, ![B, K, N]⟩ φ₂) (b : Fin B) (p : Fin M) (q : Fin N) :
    FloatOps.matmul (midDims w) prec l r (constant ⟨3, ![B, M, N]⟩ .f32 0x00000000#32) (ix3 b p q)
      = ∑ k : Fin K, l (ix3 b k p) * r (ix3 b k q) :=
  (Ideal.matmul_constant_zero_apply (midDims w) prec l r (ix3 b p q)).trans (mid_sum w l r b p q)

/-- A host dot product, at entry (b, p, q). -/
theorem dotGeneral_mid_apply (w : DotDims.WF ⟨3, ![B, K, M]⟩ ⟨3, ![B, K, N]⟩ ⟨3, ![B, M, N]⟩ [1] [1] [2] [2] [0] [0])
    {φ₁ φ₂ : FTy} (prec : Option ContractPrecision) (sched : HostSchedule)
    (l : FVec Ideal ⟨3, ![B, K, M]⟩ φ₁) (r : FVec Ideal ⟨3, ![B, K, N]⟩ φ₂) (b : Fin B) (p : Fin M) (q : Fin N) :
    FloatOps.dotGeneral (midDims w) prec sched l r (ix3 b p q) = ∑ k : Fin K, l (ix3 b k p) * r (ix3 b k q) :=
  (Ideal.dotGeneral_apply (midDims w) prec sched l r (ix3 b p q)).trans (mid_sum w l r b p q)

end Cert.LibBatchMidContract

end
-- ==== Proof.Payloads.lean ====
/-
  The two tiled bodies' stored values, read at one entry, at exact (extended real) values.

  The first body takes a block of 128 rows of the distance matrix through two dense layers: a product with the first
  weight matrix, the first bias along every row, the rectifier, a product with the second weight matrix, the second
  bias along every row. Entry (p, q) of what it stores is

      Σ_k max(Σ_j d[p, j] · W1[j, k] + b1[k], 0) · W2[k, q] + b2[q].

  The second body contracts, batch member by batch member, the atoms axis of a block of the assignment weights with the
  atoms axis of a block of the per-atom displacements: entry (b, j, n) of what it stores is Σ_i a[b, i, j] · dx[b, i, n].
  Narrowing a value to half precision changes nothing at exact values.
-/
import proofs.«125936_j6708738916907_1_alg».proof.Proof.Gen.KernelIdeal.Skeleton
import proofs.«125936_j6708738916907_1_alg».proof.Proof.Spec
import proofs.«125936_j6708738916907_1_alg».proof.Proof.LibBatchMidContract
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Dense Cert.Spec

/-- A vector laid as one row and spread down the rows, at one entry. -/
theorem rowBias_apply {α : Type} {m n : Nat} (hs : (⟨1, ![n]⟩ : Shape).ShapeCasts ⟨2, ![1, n]⟩)
    (hb : (⟨2, ![1, n]⟩ : Shape).Broadcasts ⟨2, ![m, n]⟩) (b : (⟨1, ![n]⟩ : Shape).Idx → α) (p : Fin m) (k : Fin n) :
    broadcastTo ⟨2, ![m, n]⟩ (shapeCast ⟨2, ![1, n]⟩ b hs) hb (ix2 p k) = b (ix1 k) :=
  (broadcastTo_1b_ab_apply _ hb p k).trans (Cert.LibLreluRows.rowCast_apply hs b k)

/-- The first body's stored value at entry (p, q). -/
theorem pay0_apply (x0 : FVec Ideal S128x768 .bf16) (x1 : FVec Ideal S768x3072 .bf16) (x2 : FVec Ideal S3072 .f32)
    (x3 : FVec Ideal S3072x3072 .bf16) (x4 : FVec Ideal S3072 .f32) (p : Fin 128) (q : Fin 3072) :
    k0_pay1 (F := Ideal) x0 x1 x2 x3 x4 (ix2 p q) = mlp x0 x1 x2 x3 x4 (ix2 p q) := by
  unfold k0_pay1
  refine (addf_apply _ _ _).trans ?_
  rw [mlp_apply]
  refine congrArg₂ (· + ·) ?_ (rowBias_apply _ _ x4 p q)
  refine (Cert.LibPlainContract.matmul_plain_apply 128 3072 3072 none _ _ p q).trans ?_
  refine Finset.sum_congr rfl fun k _ => ?_
  refine congrArg₂ (· * ·) ?_ (congrFun (shapeCast_self x3 _) (ix2 k q))
  refine (truncf_apply (φ := .f32) (ψ := .bf16) _ _ _).trans ?_
  refine (maximumf_apply _ _ _).trans ?_
  refine congrArg₂ max ?_ Ideal.ofBits_zero_f32
  refine (addf_apply _ _ _).trans ?_
  refine congrArg₂ (· + ·) ?_ (rowBias_apply _ _ x2 p k)
  refine (Cert.LibPlainContract.matmul_plain_apply 128 768 3072 none _ _ p k).trans ?_
  rw [shapeCast_self, shapeCast_self]

/-- The second body's stored value at entry (b, j, n). -/
theorem pay1_apply (x0 : FVec Ideal S16x1024x3 .f32) (x1 : FVec Ideal S16x1024x256 .f32) (b : Fin 16) (j : Fin 256) (n : Fin 3) :
    k1_pay1 (F := Ideal) x0 x1 (ix3 b j n) = ∑ i : Fin 1024, x1 (ix3 b i j) * x0 (ix3 b i n) := by
  unfold k1_pay1
  refine (Cert.LibBatchMidContract.matmul_mid_apply (B := 16) (K := 1024) (M := 256) (N := 3)
    Facts₀.dot_S16x1024x256_S16x1024x3_S16x256x3_1_1_2_2_0_0_wf none x1 _ b j n).trans ?_
  rw [shapeCast_self]

end Cert.KernelIdeal.Pay

end
-- ==== Proof.Region0Value.lean ====
/-
  The first region's result array: the two dense layers of the whole distance matrix.

  The region's grid has four points; point t stages rows 128·t … 128·t + 127 of the distance matrix and of the result,
  and the two weight matrices and the two biases whole. What a point writes back is the two dense layers of its block
  of rows, which is its block of rows of the two dense layers of the whole matrix, since a row of the result depends
  on the same row of the input only. The four blocks tile the result array.
-/
import proofs.«125936_j6708738916907_1_alg».proof.Proof.Gen.KernelIdeal.Frame
import proofs.«125936_j6708738916907_1_alg».proof.Proof.Payloads
import Idealize.ShloMosaic.Lib.Pipeline.Value

set_option maxRecDepth 16384

noncomputable section

namespace Cert.KernelIdeal.Region0

open Cert.KernelIdeal Cert.KernelIdeal.Gen Cert.KernelIdeal.Pay
open Idealize.ShloMosaic Idealize.ShloMosaic.TcCoe Idealize.ShloMosaic.ValueIdx Idealize.SL.Sem Cert.Dense Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the rows' windows move with the point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The result as one function of the arrays the region finds. -/
def G (c : Dev nD) : Mat 512 3072 :=
  mlp (V c main_v10 : Mat 512 768) (V c main_v11 : Mat 768 3072) (V c main_arg5 : Row 3072) (V c main_v12 : Mat 3072 3072)
    (V c main_arg7 : Row 3072)

/-- The distance matrix's block at point t is its rows 128·t …. -/
theorem rows_apply (c : Dev nD) (t : Fin cfg0.N) (y : S128x768.Idx) (i : S512x768.Idx)
    (h0 : (i 0).val = 128 * t.val + (y 0).val) (h1 : (i 1).val = (y 1).val) :
    (iblk0 V c 0 t : Vec Ideal S128x768 .bf16) y = (V c main_v10 : S512x768.Idx → EReal) i := by
  obtain ⟨e0, e1, -⟩ := idx_facts t
  unfold iblk0
  rw [View.read_apply]
  show V c main_v10 _ = V c main_v10 i
  refine congrArg (V c main_v10) ?_
  funext a
  apply Fin.ext
  match a with
  | ⟨0, _⟩ => show win0_0.index t 0 * 128 + 1 * (y 0).val = (i 0).val; rw [e0, h0]; omega
  | ⟨1, _⟩ => show win0_0.index t 1 * 768 + 1 * (y 1).val = (i 1).val; rw [e1, h1]; omega

/-- The weights and biases are staged whole. -/
theorem w1_whole (c : Dev nD) (t : Fin cfg0.N) : (iblk0 V c 1 t : Vec Ideal S768x3072 .bf16) = V c main_v11 := by
  obtain ⟨-, -, e0, e1, -⟩ := idx_facts t
  unfold iblk0
  funext y
  rw [View.read_apply]
  show V c main_v11 _ = V c main_v11 y
  refine congrArg (V c main_v11) ?_
  funext a
  apply Fin.ext
  match a with
  | ⟨0, _⟩ => show win0_1.index t 0 * 768 + 1 * (y 0).val = (y 0).val; rw [e0]; omega
  | ⟨1, _⟩ => show win0_1.index t 1 * 3072 + 1 * (y 1).val = (y 1).val; rw [e1]; omega

theorem b1_whole (c : Dev nD) (t : Fin cfg0.N) : (iblk0 V c 2 t : Vec Ideal S3072 .f32) = V c main_arg5 := by
  obtain ⟨-, -, -, -, e0, -⟩ := idx_facts t
  unfold iblk0
  funext y
  rw [View.read_apply]
  show V c main_arg5 _ = V c main_arg5 y
  refine congrArg (V c main_arg5) ?_
  funext a
  apply Fin.ext
  match a with
  | ⟨0, _⟩ => show win0_2.index t 0 * 3072 + 1 * (y 0).val = (y 0).val; rw [e0]; omega

theorem w2_whole (c : Dev nD) (t : Fin cfg0.N) : (iblk0 V c 3 t : Vec Ideal S3072x3072 .bf16) = V c main_v12 := by
  obtain ⟨-, -, -, -, -, e0, e1, -⟩ := idx_facts t
  unfold iblk0
  funext y
  rw [View.read_apply]
  show V c main_v12 _ = V c main_v12 y
  refine congrArg (V c main_v12) ?_
  funext a
  apply Fin.ext
  match a with
  | ⟨0, _⟩ => show win0_3.index t 0 * 3072 + 1 * (y 0).val = (y 0).val; rw [e0]; omega
  | ⟨1, _⟩ => show win0_3.index t 1 * 3072 + 1 * (y 1).val = (y 1).val; rw [e1]; omega

theorem b2_whole (c : Dev nD) (t : Fin cfg0.N) : (iblk0 V c 4 t : Vec Ideal S3072 .f32) = V c main_arg7 := by
  obtain ⟨-, -, -, -, -, -, -, e0, -⟩ := idx_facts t
  unfold iblk0
  funext y
  rw [View.read_apply]
  show V c main_arg7 _ = V c main_arg7 y
  refine congrArg (V c main_arg7) ?_
  funext a
  apply Fin.ext
  match a with
  | ⟨0, _⟩ => show win0_4.index t 0 * 3072 + 1 * (y 0).val = (y 0).val; rw [e0]; omega

/-- What a block of rows of the distance matrix is taken to: the body's stored value as the two dense layers. -/
theorem pay_eq (x0 : FVec Ideal S128x768 .bf16) (x1 : FVec Ideal S768x3072 .bf16) (x2 : FVec Ideal S3072 .f32)
    (x3 : FVec Ideal S3072x3072 .bf16) (x4 : FVec Ideal S3072 .f32) :
    k0_pay1 (F := Ideal) x0 x1 x2 x3 x4 = mlp x0 x1 x2 x3 x4 := by
  funext j
  obtain ⟨p, q, rfl⟩ : ∃ (p : Fin 128) (q : Fin 3072), j = ix2 p q := ⟨j 0, j 1, eq_ix2 j⟩
  exact pay0_apply x0 x1 x2 x3 x4 p q

/-- WHAT POINT t WRITES BACK is block t of the two dense layers of the whole distance matrix. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S128x768) hz2, View.ld_unit_zero (S := S768x3072) hz2,
    View.ld_unit_zero (S := S3072) hz1, View.ld_unit_zero (S := S3072x3072) hz2]
  rw [w1_whole V c t, b1_whole V c t, w2_whole V c t, b2_whole V c t]
  obtain ⟨-, -, -, -, -, -, -, -, e0, e1⟩ := idx_facts t
  funext j
  show k0_pay1 (iblk0 V c 0 t) (V c main_v11) (V c main_arg5) (V c main_v12) (V c main_arg7) j
    = G V c (((cfg0.win 5).blk t).view.emb j)
  refine (congrFun (pay_eq (iblk0 V c 0 t) (V c main_v11) (V c main_arg5) (V c main_v12) (V c main_arg7)) j).trans ?_
  unfold G
  refine mlp_block (V c main_v10 : Mat 512 768) (iblk0 V c 0 t : Mat 128 768) _ _ _ _ j _ (fun k => ?_) ?_
  · refine rows_apply V c t _ _ ?_ rfl
    show win0_5.index t 0 * 128 + 1 * (j 0).val = 128 * t.val + (j 0).val
    rw [e0]; omega
  · show (j 1).val = win0_5.index t 1 * 3072 + 1 * (j 1).val
    rw [e1]; omega

/-- An index of the result is in point t's block iff each coordinate is in the block's range on its axis. -/
theorem mem_blk (t : Fin cfg0.N) (i : S512x3072.Idx) :
    i ∈ ((cfg0.win 5).blk t).view.set ↔ ∀ a : Fin 2, win0_5.index t a * S128x3072.size a ≤ (i a).val
      ∧ (i a).val < win0_5.index t a * S128x3072.size a + S128x3072.size a := by
  show i ∈ ((View.whole main_v13).slice (win0_5.rect t)).set ↔ _
  rw [View.set_slice_whole, Rect.mem_set_unit]
  exact Iff.rfl

/-- Row r of the result is in the block of point r / 128. -/
theorem cover (i : S512x3072.Idx) :
    ∃ t : Fin cfg0.N, (cfg0.win 5).flush t = true ∧ i ∈ ((cfg0.win 5).blk t).view.set := by
  have hi0 : (i 0).val < 512 := (i 0).isLt
  have hi1 : (i 1).val < 3072 := (i 1).isLt
  have hN : cfg0.N = 4 := N_0
  have ht : (i 0).val / 128 < cfg0.N := by rw [hN]; omega
  refine ⟨⟨(i 0).val / 128, ht⟩, flush0_5 _, ?_⟩
  rw [mem_blk]
  obtain ⟨-, -, -, -, -, -, -, -, e0, e1⟩ := idx_facts ⟨(i 0).val / 128, ht⟩
  intro a
  match a with
  | ⟨0, _⟩ =>
    show win0_5.index ⟨(i 0).val / 128, ht⟩ 0 * 128 ≤ (i 0).val ∧ (i 0).val < win0_5.index ⟨(i 0).val / 128, ht⟩ 0 * 128 + 128
    rw [e0]; show (i 0).val / 128 * 128 ≤ (i 0).val ∧ (i 0).val < (i 0).val / 128 * 128 + 128; omega
  | ⟨1, _⟩ =>
    show win0_5.index ⟨(i 0).val / 128, ht⟩ 1 * 3072 ≤ (i 1).val ∧ (i 1).val < win0_5.index ⟨(i 0).val / 128, ht⟩ 1 * 3072 + 3072
    rw [e1]; omega

/-- THE RESULT ARRAY after the region: the two dense layers of the whole distance matrix. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1Value.lean ====
/-
  The second region's result array: the contraction over the atoms axis, batch member by batch member.

  The region's grid has thirty-two points; point t stages batch members 16·t … 16·t + 15 of the per-atom displacements,
  of the assignment weights and of the result. What a point writes back is the contraction of its sixteen members,
  which is its block of the contraction of the whole stacks, since a member of the result depends on the same member
  of the inputs only. The thirty-two blocks tile the result array.
-/
import proofs.«125936_j6708738916907_1_alg».proof.Proof.Gen.KernelIdeal.Frame
import proofs.«125936_j6708738916907_1_alg».proof.Proof.Payloads
import Idealize.ShloMosaic.Lib.Pipeline.Value

set_option maxRecDepth 16384

noncomputable section

namespace Cert.KernelIdeal.Region1

open Cert.KernelIdeal Cert.KernelIdeal.Gen Cert.KernelIdeal.Pay
open Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: every window moves with the point along the batch axis only. -/
theorem idx_facts : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- The result as one function of the arrays the region finds. -/
def G (c : Dev nD) : Stack 512 256 3 :=
  offs (V c main_arg2 : Stack 512 1024 256) (V c main_v29 : Stack 512 1024 3)

/-- The displacements' block at point t is batch members 16·t …. -/
theorem dx_apply (c : Dev nD) (t : Fin cfg1.N) (y : S16x1024x3.Idx) (i : S512x1024x3.Idx)
    (h0 : (i 0).val = 16 * t.val + (y 0).val) (h1 : (i 1).val = (y 1).val) (h2 : (i 2).val = (y 2).val) :
    (iblk1 V c 0 t : Vec Ideal S16x1024x3 .f32) y = (V c main_v29 : S512x1024x3.Idx → EReal) i := by
  obtain ⟨e0, e1, e2, -⟩ := idx_facts t
  unfold iblk1
  rw [View.read_apply]
  show V c main_v29 _ = V c main_v29 i
  refine congrArg (V c main_v29) ?_
  funext a
  apply Fin.ext
  match a with
  | ⟨0, _⟩ => show win1_0.index t 0 * 16 + 1 * (y 0).val = (i 0).val; rw [e0, h0]; omega
  | ⟨1, _⟩ => show win1_0.index t 1 * 1024 + 1 * (y 1).val = (i 1).val; rw [e1, h1]; omega
  | ⟨2, _⟩ => show win1_0.index t 2 * 3 + 1 * (y 2).val = (i 2).val; rw [e2, h2]; omega

/-- The assignment weights' block at point t is batch members 16·t …. -/
theorem an_apply (c : Dev nD) (t : Fin cfg1.N) (y : S16x1024x256.Idx) (i : S512x1024x256.Idx)
    (h0 : (i 0).val = 16 * t.val + (y 0).val) (h1 : (i 1).val = (y 1).val) (h2 : (i 2).val = (y 2).val) :
    (iblk1 V c 1 t : Vec Ideal S16x1024x256 .f32) y = (V c main_arg2 : S512x1024x256.Idx → EReal) i := by
  obtain ⟨-, -, -, e0, e1, e2, -⟩ := idx_facts t
  unfold iblk1
  rw [View.read_apply]
  show V c main_arg2 _ = V c main_arg2 i
  refine congrArg (V c main_arg2) ?_
  funext a
  apply Fin.ext
  match a with
  | ⟨0, _⟩ => show win1_1.index t 0 * 16 + 1 * (y 0).val = (i 0).val; rw [e0, h0]; omega
  | ⟨1, _⟩ => show win1_1.index t 1 * 1024 + 1 * (y 1).val = (i 1).val; rw [e1, h1]; omega
  | ⟨2, _⟩ => show win1_1.index t 2 * 256 + 1 * (y 2).val = (i 2).val; rw [e2, h2]; omega

/-- The body's stored value is the contraction of its two blocks. -/
theorem pay_eq (x0 : FVec Ideal S16x1024x3 .f32) (x1 : FVec Ideal S16x1024x256 .f32) :
    k1_pay1 (F := Ideal) x0 x1 = offs x1 x0 := by
  funext j
  obtain ⟨b, p, n, rfl⟩ : ∃ (b : Fin 16) (p : Fin 256) (n : Fin 3), j = ix3 b p n := ⟨j 0, j 1, j 2, eq_ix3 j⟩
  exact pay1_apply x0 x1 b p n

/-- WHAT POINT t WRITES BACK is block t of the contraction of the whole stacks. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz3]
  simp only [View.ld_unit_zero (S := S16x1024x3) hz3, View.ld_unit_zero (S := S16x1024x256) hz3]
  obtain ⟨-, -, -, -, -, -, e0, e1, e2⟩ := idx_facts t
  funext j
  show k1_pay1 (iblk1 V c 0 t) (iblk1 V c 1 t) j = G V c (((cfg1.win 2).blk t).view.emb j)
  refine (congrFun (pay_eq (iblk1 V c 0 t) (iblk1 V c 1 t)) j).trans ?_
  unfold G
  have hb : (((cfg1.win 2).blk t).view.emb j 0).val = 16 * t.val + (j 0).val := by
    show win1_2.index t 0 * 16 + 1 * (j 0).val = 16 * t.val + (j 0).val
    rw [e0]; omega
  refine offs_block (V c main_arg2 : Stack 512 1024 256) (V c main_v29 : Stack 512 1024 3)
    (iblk1 V c 1 t : Stack 16 1024 256) (iblk1 V c 0 t : Stack 16 1024 3) j _ (fun k q => ?_) (fun k q => ?_) ?_ ?_
  · exact an_apply V c t _ _ hb rfl rfl
  · exact dx_apply V c t _ _ hb rfl rfl
  · show (j 1).val = win1_2.index t 1 * 256 + 1 * (j 1).val
    rw [e1]; omega
  · show (j 2).val = win1_2.index t 2 * 3 + 1 * (j 2).val
    rw [e2]; omega

/-- An index of the result is in point t's block iff each coordinate is in the block's range on its axis. -/
theorem mem_blk (t : Fin cfg1.N) (i : S512x256x3.Idx) :
    i ∈ ((cfg1.win 2).blk t).view.set ↔ ∀ a : Fin 3, win1_2.index t a * S16x256x3.size a ≤ (i a).val
      ∧ (i a).val < win1_2.index t a * S16x256x3.size a + S16x256x3.size a := by
  show i ∈ ((View.whole main_v30).slice (win1_2.rect t)).set ↔ _
  rw [View.set_slice_whole, Rect.mem_set_unit]
  exact Iff.rfl

/-- Batch member b of the result is in the block of point b / 16. -/
theorem cover (i : S512x256x3.Idx) :
    ∃ t : Fin cfg1.N, (cfg1.win 2).flush t = true ∧ i ∈ ((cfg1.win 2).blk t).view.set := by
  have hi0 : (i 0).val < 512 := (i 0).isLt
  have hi1 : (i 1).val < 256 := (i 1).isLt
  have hi2 : (i 2).val < 3 := (i 2).isLt
  have hN : cfg1.N = 32 := N_1
  have ht : (i 0).val / 16 < cfg1.N := by rw [hN]; omega
  refine ⟨⟨(i 0).val / 16, ht⟩, flush1_2 _, ?_⟩
  rw [mem_blk]
  obtain ⟨-, -, -, -, -, -, e0, e1, e2⟩ := idx_facts ⟨(i 0).val / 16, ht⟩
  intro a
  match a with
  | ⟨0, _⟩ =>
    show win1_2.index ⟨(i 0).val / 16, ht⟩ 0 * 16 ≤ (i 0).val ∧ (i 0).val < win1_2.index ⟨(i 0).val / 16, ht⟩ 0 * 16 + 16
    rw [e0]; show (i 0).val / 16 * 16 ≤ (i 0).val ∧ (i 0).val < (i 0).val / 16 * 16 + 16; omega
  | ⟨1, _⟩ =>
    show win1_2.index ⟨(i 0).val / 16, ht⟩ 1 * 256 ≤ (i 1).val ∧ (i 1).val < win1_2.index ⟨(i 0).val / 16, ht⟩ 1 * 256 + 256
    rw [e1]; omega
  | ⟨2, _⟩ =>
    show win1_2.index ⟨(i 0).val / 16, ht⟩ 2 * 3 ≤ (i 2).val ∧ (i 2).val < win1_2.index ⟨(i 0).val / 16, ht⟩ 2 * 3 + 3
    rw [e2]; omega

/-- THE RESULT ARRAY after the region: the contraction of the whole stacks. -/
theorem final (c : Dev nD) : (dat1 V c).arrAt 2 cfg1.N = G V c :=
  (dat1 V c).arrAt_eq_of_cover 2 (G V c) (fun t _ => flushed_eq V c t) cover

end Cert.KernelIdeal.Region1

end
-- ==== Proof.RefStages.lean ====
/-
  The reference program's two heavy stages as the specification's functions.

  The reference applies the two dense layers to the whole distance matrix by two host dot products with the biases
  broadcast along the rows and a maximum with zero between them, and takes the contraction over the atoms axis by one
  batched host dot product. Read entry by entry these are the functions mlp and offs of the specification.
-/
import proofs.«125936_j6708738916907_1_alg».proof.Proof.Gen.ReferenceIdeal.Read
import proofs.«125936_j6708738916907_1_alg».proof.Proof.Spec
import proofs.«125936_j6708738916907_1_alg».proof.Proof.LibBatchMidContract

noncomputable section

namespace Cert.RefStages

open Cert.ReferenceIdeal Cert.ReferenceIdeal.Gen Cert.ReferenceIdeal.Read
open Idealize.ShloMosaic Idealize.ShloMosaic.ValueIdx Cert.Dense Cert.Spec

/-- The reference's second dense layer's output is the two dense layers of the distance matrix. -/
theorem ref_mlp (x1 : (⟨S512x256x3, .f32⟩ : BufTy).Contents (Elt Ideal)) (x4 : (⟨S768x3072, .f32⟩ : BufTy).Contents (Elt Ideal))
    (x5 : (⟨S3072, .f32⟩ : BufTy).Contents (Elt Ideal)) (x6 : (⟨S3072x3072, .f32⟩ : BufTy).Contents (Elt Ideal))
    (x7 : (⟨S3072, .f32⟩ : BufTy).Contents (Elt Ideal)) :
    val_main_v18 (F := Ideal) x1 x4 x5 x6 x7 = mlp (val_main_v9 (F := Ideal) x1) x4 x5 x6 x7 := by
  funext i
  obtain ⟨p, q, rfl⟩ : ∃ (p : Fin 512) (q : Fin 3072), i = ix2 p q := ⟨i 0, i 1, eq_ix2 i⟩
  unfold val_main_v18 val_main_v17 val_main_v16 val_main_v15
  refine (hostAddRow_apply 512 3072 _ _ _ x7 p q).trans ?_
  rw [mlp_apply]
  refine congrArg (· + x7 (ix1 q)) ?_
  refine (hostProduct_apply 512 3072 3072 none _ x6 p q).trans ?_
  refine Finset.sum_congr rfl fun k _ => ?_
  refine congrArg (· * x6 (ix2 k q)) ?_
  unfold val_main_v14 val_main_call0_v0 val_main_call0_cst val_main_v13 val_main_v12 val_main_v11 val_main_v10
  refine (hostRelu_apply 512 3072 _ _ (ix2 p k)).trans ?_
  refine congrArg (max · 0) ?_
  refine (hostAddRow_apply 512 3072 _ _ _ x5 p k).trans ?_
  refine congrArg (· + x5 (ix1 k)) ?_
  exact hostProduct_apply 512 768 3072 none _ x4 p k

/-- The reference's batched dot product is the contraction over the atoms axis. -/
theorem ref_offs (x2 : FVec Ideal S512x1024x256 .f32) (Y : FVec Ideal S512x1024x3 .f32) :
    Host.dotGeneral (F := Ideal) dot_S512x1024x256_S512x1024x3_S512x256x3_1_1_2_2_0_0 none x2 Y = offs x2 Y := by
  funext i
  obtain ⟨b, j, n, rfl⟩ : ∃ (b : Fin 512) (j : Fin 256) (n : Fin 3), i = ix3 b j n := ⟨i 0, i 1, i 2, eq_ix3 i⟩
  rw [offs_apply]
  simp only [Host.dotGeneral]
  exact Cert.LibBatchMidContract.dotGeneral_mid_apply (B := 512) (K := 1024) (M := 256) (N := 3)
    Facts₀.dot_S512x1024x256_S512x1024x3_S512x256x3_1_1_2_2_0_0_wf none _ x2 Y b j n

end Cert.RefStages

end
-- ==== Proof.HostWalk.lean ====
/-
  The idealized kernel program's result, walked back through its five segments to the reference's stages.

  The program is a stretch of host operations (the pairwise differences of the coarse positions, their lengths as the
  distance matrix, the operands narrowed to half precision), the first region (the two dense layers), a second stretch
  (the coefficients contracted with the differences, and the per-atom rows gathered), the second region (the
  contraction over the atoms axis) and a last stretch (two gathers, a difference and a sum). The reference is the same
  chain with the two regions replaced by host dot products. Stretch by stretch, each buffer the next segment reads
  holds the reference's stage of the same name: the host stretches apply the same operations to equal operands, the
  two regions are the specification's functions, which the reference's dot products are too, and narrowing to half
  precision changes nothing at exact values.
-/
import proofs.«125936_j6708738916907_1_alg».proof.Proof.Gen.KernelIdeal.Frame
import proofs.«125936_j6708738916907_1_alg».proof.Proof.Gen.ReferenceIdeal.Read
import proofs.«125936_j6708738916907_1_alg».proof.Proof.Region0Value
import proofs.«125936_j6708738916907_1_alg».proof.Proof.Region1Value
import proofs.«125936_j6708738916907_1_alg».proof.Proof.RefStages
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo
open Cert.Dense Cert.Spec

variable (m : (ℓ : Loc nD τ sig) → Buf (Elt Ideal) ℓ) (ρ : Dev nD → PrngReg)

/-! ## The arguments through the segments: nothing writes them -/

theorem W1_arg1 (c : Dev nD) : W1 m ρ c (Proc.devRef .tc main_arg1) = m ((c : Thread nD τ).loc main_arg1) := by
  show StableHlo.after hostOps0 (W0 m ρ c) (Proc.devRef .tc main_arg1) = _
  unfold hostOps0
  after_results_simp
theorem W1_arg2 (c : Dev nD) : W1 m ρ c (Proc.devRef .tc main_arg2) = m ((c : Thread nD τ).loc main_arg2) := by
  show StableHlo.after hostOps0 (W0 m ρ c) (Proc.devRef .tc main_arg2) = _
  unfold hostOps0
  after_results_simp
theorem W1_arg4 (c : Dev nD) : W1 m ρ c (Proc.devRef .tc main_arg4) = m ((c : Thread nD τ).loc main_arg4) := by
  show StableHlo.after hostOps0 (W0 m ρ c) (Proc.devRef .tc main_arg4) = _
  unfold hostOps0
  after_results_simp
theorem W1_arg5 (c : Dev nD) : W1 m ρ c (Proc.devRef .tc main_arg5) = m ((c : Thread nD τ).loc main_arg5) := by
  show StableHlo.after hostOps0 (W0 m ρ c) (Proc.devRef .tc main_arg5) = _
  unfold hostOps0
  after_results_simp
theorem W1_arg6 (c : Dev nD) : W1 m ρ c (Proc.devRef .tc main_arg6) = m ((c : Thread nD τ).loc main_arg6) := by
  show StableHlo.after hostOps0 (W0 m ρ c) (Proc.devRef .tc main_arg6) = _
  unfold hostOps0
  after_results_simp
theorem W1_arg7 (c : Dev nD) : W1 m ρ c (Proc.devRef .tc main_arg7) = m ((c : Thread nD τ).loc main_arg7) := by
  show StableHlo.after hostOps0 (W0 m ρ c) (Proc.devRef .tc main_arg7) = _
  unfold hostOps0
  after_results_simp
theorem W1_arg8 (c : Dev nD) : W1 m ρ c (Proc.devRef .tc main_arg8) = m ((c : Thread nD τ).loc main_arg8) := by
  show StableHlo.after hostOps0 (W0 m ρ c) (Proc.devRef .tc main_arg8) = _
  unfold hostOps0
  after_results_simp
theorem W1_arg9 (c : Dev nD) : W1 m ρ c (Proc.devRef .tc main_arg9) = m ((c : Thread nD τ).loc main_arg9) := by
  show StableHlo.after hostOps0 (W0 m ρ c) (Proc.devRef .tc main_arg9) = _
  unfold hostOps0
  after_results_simp

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)

theorem W3_arg1 (c : Dev nD) : W3 m ρ c (Proc.devRef .tc main_arg1) = m ((c : Thread nD τ).loc main_arg1) := by
  refine Eq.trans ?_ (W2_arg1 m ρ c)
  show StableHlo.after hostOps1 (W2 m ρ c) (Proc.devRef .tc main_arg1) = _
  unfold hostOps1
  after_results_simp
theorem W3_arg2 (c : Dev nD) : W3 m ρ c (Proc.devRef .tc main_arg2) = m ((c : Thread nD τ).loc main_arg2) := by
  refine Eq.trans ?_ (W2_arg2 m ρ c)
  show StableHlo.after hostOps1 (W2 m ρ c) (Proc.devRef .tc main_arg2) = _
  unfold hostOps1
  after_results_simp
theorem W3_arg8 (c : Dev nD) : W3 m ρ c (Proc.devRef .tc main_arg8) = m ((c : Thread nD τ).loc main_arg8) := by
  refine Eq.trans ?_ (W2_arg8 m ρ c)
  show StableHlo.after hostOps1 (W2 m ρ c) (Proc.devRef .tc main_arg8) = _
  unfold hostOps1
  after_results_simp

theorem W4_arg1 (c : Dev nD) : W4 m ρ c (Proc.devRef .tc main_arg1) = m ((c : Thread nD τ).loc main_arg1) :=
  (W4_of_ne m ρ c main_arg1 (by decide)).trans (W3_arg1 m ρ c)
theorem W4_arg8 (c : Dev nD) : W4 m ρ c (Proc.devRef .tc main_arg8) = m ((c : Thread nD τ).loc main_arg8) :=
  (W4_of_ne m ρ c main_arg8 (by decide)).trans (W3_arg8 m ρ c)

/-! ## The first stretch -/

/-- Narrowing to half precision is the identity at exact values. -/
theorem narrow_id {s : Shape} (a : FVec Ideal s .f32) (h : FTy.bf16.bits < FTy.f32.bits) :
    (truncf .bf16 a h : s.Idx → EReal) = a := rfl

/-- The distance matrix the first region reads is the reference's. -/
theorem W1_v10 (c : Dev nD) :
    (W1 m ρ c (Proc.devRef .tc main_v10) : S512x768.Idx → EReal) = Cert.ReferenceIdeal.Read.val_main_v9 (F := Ideal) (m ((c : Thread nD τ).loc main_arg1)) := by
  show StableHlo.after hostOps0 (W0 m ρ c) (Proc.devRef .tc main_v10) = _
  unfold hostOps0
  after_results_simp
  rfl

theorem W1_v11 (c : Dev nD) : (W1 m ρ c (Proc.devRef .tc main_v11) : S768x3072.Idx → EReal) = (m ((c : Thread nD τ).loc main_arg4)) := by
  show StableHlo.after hostOps0 (W0 m ρ c) (Proc.devRef .tc main_v11) = _
  unfold hostOps0
  after_results_simp
  rfl

theorem W1_v12 (c : Dev nD) : (W1 m ρ c (Proc.devRef .tc main_v12) : S3072x3072.Idx → EReal) = (m ((c : Thread nD τ).loc main_arg6)) := by
  show StableHlo.after hostOps0 (W0 m ρ c) (Proc.devRef .tc main_v12) = _
  unfold hostOps0
  after_results_simp
  rfl

/-- The pairwise differences of the coarse positions are the reference's. -/
theorem W1_v5 (c : Dev nD) :
    (W1 m ρ c (Proc.devRef .tc main_v5) : S512x256x3x3.Idx → EReal) = Cert.ReferenceIdeal.Read.val_main_v5 (F := Ideal) (m ((c : Thread nD τ).loc main_arg1)) := by
  show StableHlo.after hostOps0 (W0 m ρ c) (Proc.devRef .tc main_v5) = _
  unfold hostOps0
  after_results_simp
  rfl

/-! ## The first region -/

/-- The two dense layers of the arrays the first region finds are the reference's second layer's output. -/
theorem G0_eq (c : Dev nD) : Cert.KernelIdeal.Region0.G (V1 m ρ) c = Cert.ReferenceIdeal.Read.val_main_v18 (F := Ideal) (m ((c : Thread nD τ).loc main_arg1)) (m ((c : Thread nD τ).loc main_arg4)) (m ((c : Thread nD τ).loc main_arg5)) (m ((c : Thread nD τ).loc main_arg6)) (m ((c : Thread nD τ).loc main_arg7)) := by
  rw [Cert.RefStages.ref_mlp]
  unfold Cert.KernelIdeal.Region0.G
  show mlp (W1 m ρ c (Proc.devRef .tc main_v10) : Mat 512 768) (W1 m ρ c (Proc.devRef .tc main_v11) : Mat 768 3072)
      (W1 m ρ c (Proc.devRef .tc main_arg5) : Row 3072) (W1 m ρ c (Proc.devRef .tc main_v12) : Mat 3072 3072)
      (W1 m ρ c (Proc.devRef .tc main_arg7) : Row 3072) = _
  rw [W1_v10 m ρ c, W1_v11 m ρ c, W1_v12 m ρ c, W1_arg5 m ρ c, W1_arg7 m ρ c]

theorem W2_v13 (c : Dev nD) :
    (W2 m ρ c (Proc.devRef .tc main_v13) : S512x3072.Idx → EReal) = Cert.ReferenceIdeal.Read.val_main_v18 (F := Ideal) (m ((c : Thread nD τ).loc main_arg1)) (m ((c : Thread nD τ).loc main_arg4)) (m ((c : Thread nD τ).loc main_arg5)) (m ((c : Thread nD τ).loc main_arg6)) (m ((c : Thread nD τ).loc main_arg7)) :=
  ((W2_arr m ρ c 5).trans (Cert.KernelIdeal.Region0.final (V1 m ρ) c)).trans (G0_eq m ρ c)

theorem W2_v5 (c : Dev nD) :
    (W2 m ρ c (Proc.devRef .tc main_v5) : S512x256x3x3.Idx → EReal) = Cert.ReferenceIdeal.Read.val_main_v5 (F := Ideal) (m ((c : Thread nD τ).loc main_arg1)) :=
  (W2_of_ne m ρ c main_v5 (by decide)).trans (W1_v5 m ρ c)

/-! ## The second stretch -/

/-- The operations before the two index columns are joined. -/
abbrev midOps : List (HloOp τ sig (Elt Ideal)) := List.take 18 hostOps1

theorem mid_v15 (c : Dev nD) :
    (StableHlo.after midOps (W2 m ρ c) (Proc.devRef .tc main_v15) : S512x256x4x3.Idx → EReal)
      = Cert.ReferenceIdeal.Read.val_main_v20 (F := Ideal) (m ((c : Thread nD τ).loc main_arg1)) (m ((c : Thread nD τ).loc main_arg4)) (m ((c : Thread nD τ).loc main_arg5)) (m ((c : Thread nD τ).loc main_arg6)) (m ((c : Thread nD τ).loc main_arg7)) := by
  have e13 := W2_v13 m ρ c
  have e5 := W2_v5 m ρ c
  simp only [midOps, hostOps1, List.take_succ_cons, List.take_zero]
  after_results_simp
  rw [e13, e5]
  rfl

theorem mid_v26 (c : Dev nD) :
    (StableHlo.after midOps (W2 m ρ c) (Proc.devRef .tc main_v26) : S1024x1.Idx → BitVec 32)
      = Cert.ReferenceIdeal.Read.val_main_v31 (F := Ideal) (m ((c : Thread nD τ).loc main_arg8)) := by
  have e8 := W2_arg8 m ρ c
  simp only [midOps, hostOps1, List.take_succ_cons, List.take_zero]
  after_results_simp
  rw [e8]
  rfl

theorem mid_v27 (c : Dev nD) :
    (StableHlo.after midOps (W2 m ρ c) (Proc.devRef .tc main_v27) : S1024x1.Idx → BitVec 32)
      = Cert.ReferenceIdeal.Read.val_main_v32 (F := Ideal) (m ((c : Thread nD τ).loc main_arg9)) := by
  have e9 := W2_arg9 m ρ c
  simp only [midOps, hostOps1, List.take_succ_cons, List.take_zero]
  after_results_simp
  rw [e9]
  rfl

/-- The per-atom displacement rows the second region reads are the reference's. -/
theorem W3_v29 (c : Dev nD) :
    (W3 m ρ c (Proc.devRef .tc main_v29) : S512x1024x3.Idx → EReal) = Cert.ReferenceIdeal.Read.val_main_v34 (F := Ideal) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e15 := mid_v15 m ρ c
  have e26 := mid_v26 m ρ c
  have e27 := mid_v27 m ρ c
  show StableHlo.after hostOps1 (W2 m ρ c) (Proc.devRef .tc main_v29) = _
  rw [← List.take_append_drop 18 hostOps1, StableHlo.after_append]
  generalize StableHlo.after midOps (W2 m ρ c) = W' at e15 e26 e27 ⊢
  simp only [hostOps1, List.drop_succ_cons, List.drop_zero]
  after_results_simp
  rw [e15, e26, e27]
  rfl

/-! ## The second region -/

theorem G1_eq (c : Dev nD) : Cert.KernelIdeal.Region1.G (V3 m ρ) c = Cert.ReferenceIdeal.Read.val_main_v35 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Cert.KernelIdeal.Region1.G Cert.ReferenceIdeal.Read.val_main_v35
  rw [Cert.RefStages.ref_offs]
  show offs (W3 m ρ c (Proc.devRef .tc main_arg2) : Stack 512 1024 256) (W3 m ρ c (Proc.devRef .tc main_v29) : Stack 512 1024 3) = _
  rw [W3_arg2 m ρ c, W3_v29 m ρ c]

theorem W4_v30 (c : Dev nD) :
    (W4 m ρ c (Proc.devRef .tc main_v30) : S512x256x3.Idx → EReal) = Cert.ReferenceIdeal.Read.val_main_v35 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((W4_arr m ρ c 2).trans (Cert.KernelIdeal.Region1.final (V3 m ρ) c)).trans (G1_eq m ρ c)

theorem W4_v29 (c : Dev nD) :
    (W4 m ρ c (Proc.devRef .tc main_v29) : S512x1024x3.Idx → EReal) = Cert.ReferenceIdeal.Read.val_main_v34 (F := Ideal) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((W4_arr m ρ c 0).trans (((dat1 (V3 m ρ) c).arrAt_in 0 rfl _).trans (A_eq1 (V3 m ρ) c 0))).trans (W3_v29 m ρ c)

/-! ## The last stretch -/

/-- THE RESULT: the program's computed buffer ends holding the reference's last stage. -/
theorem W5_v46 (c : Dev nD) :
    (W5 m ρ c (Proc.devRef .tc main_v46) : S512x1024x3.Idx → EReal) = Cert.ReferenceIdeal.Read.val_main_v51 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e1 := W4_arg1 m ρ c
  have e8 := W4_arg8 m ρ c
  have e30 := W4_v30 m ρ c
  have e29 := W4_v29 m ρ c
  show StableHlo.after hostOps2 (W4 m ρ c) (Proc.devRef .tc main_v46) = _
  unfold hostOps2
  after_results_simp
  rw [e1, e8, e30, e29]
  rfl

end Cert.KernelIdeal.Walk

end
-- ==== Proof.lean ====
/-
  The certificate of a set-equivariant network's forward pass: a tiled program against its array-level reference.

  Both programs compute, from coarse positions cg, assignment weights an, two dense layers (W1, b1, W2, b2) and two
  index vectors: the differences d of every coarse position to three fixed neighbours, their lengths as a [512, 768]
  matrix, the two dense layers of that matrix (a rectifier between them), the coefficients contracted with d, the rows
  gathered per atom (dx), the contraction of dx with an over the atoms (off), and cg[idx] - off[idx] + dx. The tiled
  program takes the two dense layers in one region, 128 rows of the matrix at a grid point, on operands narrowed to half
  precision, and the contraction over the atoms in another, sixteen batch members at a point; everything else is the
  same host operations in the same order. At exact values narrowing changes nothing, a block of rows of the two dense
  layers is the two dense layers of the block, and a batch member of the contraction is the contraction of the member;
  so the results are equal, element by element, with no condition on the inputs. The two pass-through results are
  arguments, which neither program writes.

  The three frames are the generated ones (the reference's is its generated run with the results dropped); the
  idealization rewrote no operation, so its conjunct is trivial.
-/
import proofs.«125936_j6708738916907_1_alg».proof.Defs
import proofs.«125936_j6708738916907_1_alg».proof.Proof.Gen.Kernel
import proofs.«125936_j6708738916907_1_alg».proof.Proof.Gen.Kernel.Frame
import proofs.«125936_j6708738916907_1_alg».proof.Proof.Gen.KernelIdeal
import proofs.«125936_j6708738916907_1_alg».proof.Proof.Gen.KernelIdeal.Frame
import proofs.«125936_j6708738916907_1_alg».proof.Proof.Gen.ReferenceIdeal
import proofs.«125936_j6708738916907_1_alg».proof.Proof.Gen.Pre_finite_inputs
import proofs.«125936_j6708738916907_1_alg».proof.Proof.Gen.ReferenceIdeal.Run
import proofs.«125936_j6708738916907_1_alg».proof.Proof.Gen.ReferenceIdeal.Read
import proofs.«125936_j6708738916907_1_alg».proof.Proof.KernelRun
import proofs.«125936_j6708738916907_1_alg».proof.Proof.HostWalk

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both programs end with the two pass-through arguments and the reference's last stage of the arguments. -/
theorem algebraic : Cert.algebraic_KernelIdeal_ReferenceIdeal := by
  intro m ρ m' ρ' _ hagree
  refine ⟨fun c => (m ((c.tc : Thread Cert.KernelIdeal.nD Cert.KernelIdeal.τ).loc Cert.KernelIdeal.main_arg3)), fun c => (m ((c.tc : Thread Cert.KernelIdeal.nD Cert.KernelIdeal.τ).loc Cert.KernelIdeal.main_arg0)),
    fun c => Cert.ReferenceIdeal.Read.val_main_v51 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).2.2.2.2.1, (h c).2.1, (h c).1.trans (Cert.KernelIdeal.Walk.W5_v46 m ρ c), (h c).2⟩)
      (Cert.KernelIdeal.Gen.run_all (F := Ideal) m ρ)
  · refine (θ_run Cert.ReferenceIdeal.defs _ _).mono (fun _ h c => ⟨(h c).1.trans (hagree c).2.2.2.1,
      (h c).2.1.trans (hagree c).1, (h c).2.2.1.trans ?_, (h c).2.2.2⟩) (Cert.ReferenceIdeal.Value.run (F := Ideal) m' ρ')
    rw [Cert.ReferenceIdeal.Read.val_main_v51_eq, (hagree c).2.1, (hagree c).2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
